-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x32 : Shape := ⟨3, ![64, 1024, 32]⟩
abbrev S32 : Shape := ⟨1, ![32]⟩
abbrev S32x32 : Shape := ⟨2, ![32, 32]⟩
abbrev S_ : Shape := ⟨0, ![]⟩

class Facts : Prop where
  bcast_S_S64x1024x32 : S_.BroadcastsInDim S64x1024x32 (![] : Fin 0 → Fin S64x1024x32.rank)
  reducesTo_S64x1024x32_S_d0_1_2 : S64x1024x32.ReducesTo [0, 1, 2] S_
  h_S_ : 0 < S_.numel
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32 .f32) (main_arg5 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  main_v28

def fn {F : FTy → Type} [FloatOps F] (main_arg0 : FVec F S64x1024x32 .f32) (main_arg1 : FVec F S32 .f32) (main_arg2 : FVec F S32 .f32) (main_arg3 : FVec F S32x32 .f32) (main_arg4 : FVec F S32 .f32) (main_arg5 : FVec F S32x32 .f32) : IVec S_ 1 :=
  let main_v0 : FVec F S64x1024x32 .f32 := Host.absf main_arg0
  let main_cst : FVec F S_ .f32 := constant S_ .f32 0x7F800000#32
  let main_v1 : FVec F S64x1024x32 .f32 := broadcastInDim S64x1024x32 ![] bcast_S_S64x1024x32 main_cst
  let main_v2 : IVec S64x1024x32 1 := cmpf .olt main_v0 main_v1
  let main_c : IVec S_ 1 := constantI S_ 1 1#1
  let main_v3 : IVec S_ 1 := (fun x v => Host.reduce IntOp.andi x v reducesTo_S64x1024x32_S_d0_1_2 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_v13 main_v16
-- ==== Kernel.lean ====
abbrev S64x1024x32 : Shape := ⟨3, ![64, 1024, 32]⟩
abbrev S32 : Shape := ⟨1, ![32]⟩
abbrev S32x32 : Shape := ⟨2, ![32, 32]⟩
abbrev S1x32 : Shape := ⟨2, ![1, 32]⟩
abbrev S1x1024x32 : Shape := ⟨3, ![1, 1024, 32]⟩
abbrev S1024x32 : Shape := ⟨2, ![1024, 32]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 10
  | .vmem => 9
  | .smem => 0
  | _ => 0

abbrev bufTy : (tb : Table) → Fin (tcTables nBuf tb) → BufTy
  | .hbm, ⟨0, _⟩ => ⟨S64x1024x32, .f32⟩
  | .hbm, ⟨1, _⟩ => ⟨S32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S64x1024x32, .f32⟩
  | .local _ .vmem, ⟨0, _⟩ => ⟨S1x1024x32, .f32⟩
  | .local _ .vmem, ⟨1, _⟩ => ⟨S1x1024x32, .f32⟩
  | .local _ .vmem, ⟨2, _⟩ => ⟨S1x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S32x32, .f32⟩
  | .local _ .vmem, ⟨7, _⟩ => ⟨S1x1024x32, .f32⟩
  | .local _ .vmem, ⟨8, _⟩ => ⟨S1x1024x32, .f32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32_S1x32 : S32.ShapeCasts S1x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S1x32_S1x32_0_0 : ∀ a, (![0, 0] : Fin 2 → Nat) a + S1x32.size a ≤ S1x32.size a
  h_S1x32 : 0 < S1x32.numel
  shapeCasts_S1x32_S32 : S1x32.ShapeCasts S32
  inb_S32x32_S32x32_0_0 : ∀ a, (![0, 0] : Fin 2 → Nat) a + S32x32.size a ≤ S32x32.size a
  h_S32x32 : 0 < S32x32.numel
  broadcasts_S1x32_S1024x32 : S1x32.Broadcasts S1024x32
  bitsLt_bf16_f32 : FTy.bits .bf16 < FTy.bits .f32
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S1024x32_S1x1024x32 : S1024x32.ShapeCasts S1x1024x32
  dot_S1024x32_S1024x32_S1024x1024_1_1_0_0_n_n_wf : DotDims.WF S1024x32 S1024x32 S1024x1024 [1] [1] [0] [0] [] []
  dot_S1024x32_S32x32_S1024x32_1_0_0_1_n_n_wf : DotDims.WF S1024x32 S32x32 S1024x32 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32.size a ≤ S64x1024x32.size a
  hwx0_0 : ∀ i : grid0.Coords, EltTy.bits .f32 = 32 ∨ (Rect.block (s := S64x1024x32) S1x1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x32.size a ≤ S64x1024x32.size a
  hwx0_6 : ∀ i : grid0.Coords, EltTy.bits .f32 = 32 ∨ (Rect.block (s := S64x1024x32) S1x1024x32.size (cc0_transform_6 i) (hinb0_6 i)).WholeWords (EltTy.packing .f32)

variable [Facts₀]

def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg0) S1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x32 : Shape := ⟨3, ![64, 1024, 32]⟩
abbrev S32 : Shape := ⟨1, ![32]⟩
abbrev S32x32 : Shape := ⟨2, ![32, 32]⟩
abbrev S1x1x32 : Shape := ⟨3, ![1, 1, 32]⟩
abbrev S64x1024x1024 : Shape := ⟨3, ![64, 1024, 1024]⟩
abbrev S1024x1024 : Shape := ⟨2, ![1024, 1024]⟩
abbrev S_ : Shape := ⟨0, ![]⟩
abbrev S1x1024x1024 : Shape := ⟨3, ![1, 1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S1x1x32, .f32⟩
  | .hbm, ⟨7, _⟩ => ⟨S64x1024x32, .f32⟩
  | .hbm, ⟨8, _⟩ => ⟨S64x1024x32, .f32⟩
  | .hbm, ⟨9, _⟩ => ⟨S1x1x32, .f32⟩
  | .hbm, ⟨10, _⟩ => ⟨S64x1024x32, .f32⟩
  | .hbm, ⟨11, _⟩ => ⟨S64x1024x32, .f32⟩
  | .hbm, ⟨12, _⟩ => ⟨S64x1024x1024, .f32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1x1024x1024, .f32⟩
  | .hbm, ⟨24, _⟩ => ⟨S64x1024x1024, .f32⟩
  | .hbm, ⟨25, _⟩ => ⟨S64x1024x1024, .f32⟩
  | .hbm, ⟨26, _⟩ => ⟨S64x1024x32, .f32⟩
  | .hbm, ⟨27, _⟩ => ⟨S1x1x32, .f32⟩
  | .hbm, ⟨28, _⟩ => ⟨S64x1024x32, .f32⟩
  | .hbm, ⟨29, _⟩ => ⟨S64x1024x32, .f32⟩
  | .hbm, ⟨30, _⟩ => ⟨S_, .f32⟩
  | .hbm, ⟨31, _⟩ => ⟨S64x1024x32, .f32⟩
  | .hbm, ⟨32, _⟩ => ⟨S64x1024x32, .f32⟩
  | .hbm, ⟨33, _⟩ => ⟨S64x1024x32, .f32⟩
  | .hbm, ⟨34, _⟩ => ⟨S_, .f32⟩
  | .hbm, ⟨35, _⟩ => ⟨S64x1024x32, .f32⟩
  | .hbm, ⟨36, _⟩ => ⟨S64x1024x32, .f32⟩
  | .hbm, ⟨37, _⟩ => ⟨S64x1024x32, .f32⟩
  | .hbm, ⟨38, _⟩ => ⟨S64x1024x32, .f32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S64x1024x32_0_1_2 : S1x1x32.BroadcastsInDim S64x1024x32 (![0, 1, 2] : Fin 3 → Fin S64x1024x32.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S_S64x1024x32 : S_.BroadcastsInDim S64x1024x32 (![] : Fin 0 → Fin S64x1024x32.rank)
  dot_S64x1024x32_S64x1024x32_S64x1024x1024_2_2_1_1_0_0_wf : DotDims.WF S64x1024x32 S64x1024x32 S64x1024x1024 [2] [2] [1] [1] [0] [0]
  dot_S64x1024x32_S32x32_S64x1024x32_2_0_01_1_n_n_wf : DotDims.WF S64x1024x32 S32x32 S64x1024x32 [2] [0] [0, 1] [1] [] []
  dot_S64x1024x1024_S64x1024x32_S64x1024x32_2_1_1_2_0_0_wf : DotDims.WF S64x1024x1024 S64x1024x32 S64x1024x32 [2] [1] [1] [2] [0] [0]

variable [Facts₀]

def dot_S64x1024x32_S64x1024x32_S64x1024x1024_2_2_1_1_0_0 : DotDims S64x1024x32 S64x1024x32 S64x1024x1024 where
  lhsContracting := [2]
  rhsContracting := [2]
  lhsNonContracting := [1]
  rhsNonContracting := [1]
  lhsBatch := [0]
  rhsBatch := [0]
  wf := dot_S64x1024x32_S64x1024x32_S64x1024x1024_2_2_1_1_0_0_wf
def dot_S64x1024x32_S32x32_S64x1024x32_2_0_01_1_n_n : DotDims S64x1024x32 S32x32 S64x1024x32 where
  lhsContracting := [2]
  rhsContracting := [0]
  lhsNonContracting := [0, 1]
  rhsNonContracting := [1]
  lhsBatch := []
  rhsBatch := []
  wf := dot_S64x1024x32_S32x32_S64x1024x32_2_0_01_1_n_n_wf
def dot_S64x1024x1024_S64x1024x32_S64x1024x32_2_1_1_2_0_0 : DotDims S64x1024x1024 S64x1024x32 S64x1024x32 where
  lhsContracting := [2]
  rhsContracting := [1]
  lhsNonContracting := [1]
  rhsNonContracting := [2]
  lhsBatch := [0]
  rhsBatch := [0]
  wf := dot_S64x1024x1024_S64x1024x32_S64x1024x32_2_1_1_2_0_0_wf

class Facts : Prop extends Facts₀ where

variable [Facts]
-- ==== Proof.Consts.lean ====
/-
  The three float constants the two programs spell whose values matter, as the extended reals their bit patterns
  denote: 1.0 is 1, 9.765625e-4 is 2⁻¹⁰ = 1/1024 exactly, and 1024.0 is 1024. So dividing by the last is multiplying by
  the second, at every extended real: division by a nonzero real is multiplication by its reciprocal, at the infinities
  too.
-/
import Idealize.ShloMosaic.PureOps.Ideal

noncomputable section

namespace Cert.Consts

open Idealize.ShloMosaic

/-- The float `1.0` denotes 1. -/
theorem ofBits_one : Ideal.ofBits .f32 0x3F800000#32 = 1 := by
  simp [Ideal.ofBits, Ideal.ieee, -EReal.coe_mul]; norm_num

/-- The float `9.765625e-4` denotes 2⁻¹⁰ = 1/1024, -/
theorem ofBits_inv1024 : Ideal.ofBits .f32 0x3A800000#32 = ((1 / 1024 : ℝ) : EReal) := by
  simp [Ideal.ofBits, Ideal.ieee, -EReal.coe_mul]; norm_num

/-- and the float `1024.0` the real 1024, -/
theorem ofBits_1024 : Ideal.ofBits .f32 0x44800000#32 = ((1024 : ℝ) : EReal) := by
  simp [Ideal.ofBits, Ideal.ieee, -EReal.coe_mul]; norm_num

/-- so dividing by the one is multiplying by the other, at every extended real. -/
theorem div_1024 (v : EReal) :
    Ideal.div v (Ideal.ofBits .f32 0x44800000#32) = v * Ideal.ofBits .f32 0x3A800000#32 := by
  rw [ofBits_1024, ofBits_inv1024]
  exact Ideal.div_coe (by norm_num) v

end Cert.Consts

end
-- ==== Proof.Spec.lean ====
/-
  What both programs compute, as one function of the argument arrays, and the two scalar laws that join their
  spellings.

  For one batch entry with rows X(p, ·), p < 1024, of 32 features, per-feature gates a and b, a 32 × 32 matrix U with
  bias β, and a 32 × 32 matrix R:
    rel(p, j)    = ∑ f, (X(p, f) · a(f)) · (X(j, f) · b(f))        the relation score of rows p and j
    relOff(p, j) = 0 if p = j, rel(p, j) otherwise                  a row is not related to itself
    unary(j, g)  = max (∑ f, X(j, f) · U(f, g) + β(g)) 0            the rectified unary transform of row j
    ctx(p, g)    = (∑ j, relOff(p, j) · unary(j, g)) · 2⁻¹⁰          the mean over the 1024 rows
    out(p, g)    = ∑ f, ctx(p, f) · R(f, g) + X(p, g)               the projection plus the residual row
  The result array holds out of batch entry b at (b, p, g).

  The two spellings differ in two places. One program zeroes the diagonal by selecting the constant 0 where the row
  number equals the column number, the other multiplies by 1 − e with e the 0/1 indicator of the diagonal: on the
  extended reals a · 0 = 0 and a · 1 = a for every a, the infinities included, so both are relOff. One multiplies by
  the float 2⁻¹⁰, the other divides by the float 1024: division by a nonzero real is multiplication by its reciprocal
  on all of the extended reals.
-/
import Idealize.ShloMosaic.PureOps.Ideal.Laws
import Idealize.ShloMosaic.Lib.ValueIdx
import Idealize.ShloMosaic.Lib.Affine
import proofs.«118249_j23450521436770_2_alg».proof.Proof.Consts

noncomputable section

namespace Cert.Spec

open Idealize.ShloMosaic Idealize.ShloMosaic.ValueIdx

/-! ## The function -/

section Fn
variable (X : Fin 1024 → Fin 32 → EReal) (a b : Fin 32 → EReal) (U : Fin 32 → Fin 32 → EReal) (β : Fin 32 → EReal)
  (R : Fin 32 → Fin 32 → EReal)

/-- The relation score of rows `p` and `j`: the inner product of the gated rows. -/
def rel (p j : Fin 1024) : EReal := ∑ f : Fin 32, (X p f * a f) * (X j f * b f)

/-- The score with the diagonal removed. -/
def relOff (p j : Fin 1024) : EReal := if p = j then 0 else rel X a b p j

/-- The rectified unary transform of row `j`. -/
def unary (j : Fin 1024) (g : Fin 32) : EReal := max ((∑ f : Fin 32, X j f * U f g) + β g) 0

/-- The context of row `p`: the scores against every other row's unary transform, averaged over the 1024 rows. -/
def ctx (p : Fin 1024) (g : Fin 32) : EReal :=
  (∑ j : Fin 1024, relOff X a b p j * unary X U β j g) * Ideal.ofBits .f32 0x3A800000#32

/-- The projected context plus the row itself. -/
def out (p : Fin 1024) (g : Fin 32) : EReal := (∑ f : Fin 32, ctx X a b U β p f * R f g) + X p g

end Fn

/-- The result array: entry (b, p, g) is `out` of batch entry `b`'s rows. -/
def G (x : (⟨3, ![64, 1024, 32]⟩ : Shape).Idx → EReal) (wa wb : (⟨1, ![32]⟩ : Shape).Idx → EReal)
    (wu : (⟨2, ![32, 32]⟩ : Shape).Idx → EReal) (bu : (⟨1, ![32]⟩ : Shape).Idx → EReal)
    (wr : (⟨2, ![32, 32]⟩ : Shape).Idx → EReal) (n : Fin 64) (p : Fin 1024) (g : Fin 32) : EReal :=
  out (fun p f => x (ix3 n p f)) (fun f => wa (ix1 f)) (fun f => wb (ix1 f)) (fun f g => wu (ix2 f g))
    (fun g => bu (ix1 g)) (fun f g => wr (ix2 f g)) p g

/-! ## The diagonal -/

/-- Two row numbers below 1024, as 32-bit words, compare equal exactly when they are equal. -/
theorem cmpi_rows (p q : Fin 1024) :
    IntOp.cmpi .eq (BitVec.ofNat 32 p.val) (BitVec.ofNat 32 q.val) = 1#1 ↔ p = q := by
  rw [IntOp.cmpi_eq]
  constructor
  · intro h
    have h' := congrArg BitVec.toNat h
    simp only [BitVec.toNat_ofNat] at h'
    have hp := p.isLt
    have hq := q.isLt
    exact Fin.ext (by omega)
  · rintro rfl; rfl

/-- Selecting `z` on the diagonal and `v` off it. -/
theorem select_rows {α : Type} (p q : Fin 1024) (z v : α) :
    Scalar.select (IntOp.cmpi .eq (BitVec.ofNat 32 p.val) (BitVec.ofNat 32 q.val)) z v = if p = q then z else v := by
  by_cases h : p = q
  · exact (if_pos ((cmpi_rows p q).mpr h)).trans (if_pos h).symm
  · exact (if_neg (fun hc => h ((cmpi_rows p q).mp hc))).trans (if_neg h).symm

/-- Multiplying by one minus the diagonal's 0/1 indicator (the row number first increased by the word 0): zero on the
    diagonal, the value itself off it, at every extended real. -/
theorem mul_one_sub_rows (p q : Fin 1024) (v : EReal) :
    v * (Ideal.ofBits .f32 0x3F800000#32
        - (((IntOp.cmpi .eq (IntOp.addi (BitVec.ofNat 32 p.val) 0#32) (BitVec.ofNat 32 q.val)).toNat : ℝ) : EReal))
      = if p = q then 0 else v := by
  have h0 : IntOp.addi (BitVec.ofNat 32 p.val) 0#32 = BitVec.ofNat 32 p.val := by
    unfold IntOp.addi; exact BitVec.add_zero _
  rw [h0, Cert.Consts.ofBits_one]
  by_cases h : p = q
  · rw [(cmpi_rows p q).mpr h, if_pos h]
    show v * ((1 : EReal) - (((1 : ℕ) : ℝ) : EReal)) = 0
    rw [Nat.cast_one, ← EReal.coe_one, ← EReal.coe_sub, sub_self, EReal.coe_zero, mul_zero]
  · rw [eq_zero_of_ne_one (fun hc => h ((cmpi_rows p q).mp hc)), if_neg h]
    show v * ((1 : EReal) - (((0 : ℕ) : ℝ) : EReal)) = v
    rw [Nat.cast_zero, EReal.coe_zero, sub_zero, mul_one]

end Cert.Spec

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.LibColumnBroadcast.lean ====
/- A general layout fact: a column broadcast over the lanes, read at an index. -/
import Idealize.ShloMosaic.Lib.Pipeline.Value
import Idealize.ShloMosaic.Lib.ValueIdx

namespace Cert.Lib

open Idealize.ShloMosaic Idealize.ShloMosaic.ValueIdx

/-- An `[a, 1]` array (one value per row, as a reduction that keeps its axis leaves it) broadcast to `[a, b]` reads, at
    `(p, c)`, row `p`'s one value, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KernelBlock.lean ====
/-
  What the kernel body stores, element by element.

  At one grid point the body reads one batch entry x0 : [1, 1024, 32], the two gates x1, x2 : [1, 32], the matrix
  x3 : [32, 32] with its bias x4 : [1, 32], and the matrix x5 : [32, 32], and stores one [1, 1024, 32] block. With the
  changes of float format the identity at the ideal values, the stages are: the rows of the entry ([1, 1024, 32] viewed
  [1024, 32]); each gate's row broadcast over the 1024 rows and multiplied in; the product of the gated rows with the
  gated rows (rows against rows, no transpose formed) — the relation scores; the diagonal found by comparing a column of
  row numbers with a row of column numbers, and the constant 0 selected there; the rows times x3 plus the bias row,
  rectified; the masked scores times that; the scale by 2⁻¹⁰; the product with x5 plus the rows. Each stage read at an
  index is the matching line of the specification, so the stored block at (·, p, g) is `Spec.out` at (p, g) of the
  block's coordinates.
-/
import proofs.«118249_j23450521436770_2_alg».proof.Proof.Gen.KernelIdeal.Skeleton
import proofs.«118249_j23450521436770_2_alg».proof.Proof.Spec
import proofs.«118249_j23450521436770_2_alg».proof.Proof.LibMatmul2
import proofs.«118249_j23450521436770_2_alg».proof.Proof.LibMatmulRows
import proofs.«118249_j23450521436770_2_alg».proof.Proof.LibColumnBroadcast
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-! ## The coordinates of the loaded blocks -/

/-- Row `p`, feature `f` of the batch entry. -/
abbrev rowsOf (x0 : Vec Ideal S1x1024x32 .f32) : Fin 1024 → Fin 32 → EReal := fun p f => x0 (ix3 (0 : Fin 1) p f)
/-- Entry `f` of a [1, 32] row. -/
abbrev rowOf (w : Vec Ideal S1x32 .f32) : Fin 32 → EReal := fun f => w (ix2 (0 : Fin 1) f)
/-- Entry (f, g) of a [32, 32] matrix. -/
abbrev matOf (w : Vec Ideal S32x32 .f32) : Fin 32 → Fin 32 → EReal := fun f g => w (ix2 f g)

/-! ## The layout steps -/

/-- The batch entry viewed as its 1024 rows. -/
theorem rows_apply (x0 : Vec Ideal S1x1024x32 .f32) (p : Fin 1024) (f : Fin 32) :
    k0_pay2 x0 (ix2 p f) = rowsOf x0 p f :=
  shapeCast_1ab_ab_apply x0 shapeCasts_S1x1024x32_S1024x32 p f

/-- A [1, 32] row flattened, restored, and broadcast over the 1024 rows reads its entry `f` in every row. -/
theorem rowBroadcast_apply (w : Vec Ideal S1x32 .f32) (p : Fin 1024) (f : Fin 32) :
    broadcastTo S1024x32 (shapeCast S1x32 (shapeCast S32 w shapeCasts_S1x32_S32) shapeCasts_S32_S1x32)
      broadcasts_S1x32_S1024x32 (ix2 p f) = rowOf w f := by
  rw [shapeCast_shapeCast]
  exact broadcastTo_1b_ab_apply w broadcasts_S1x32_S1024x32 p f

/-! ## The three matrix products -/

/-- A [1024, 32] by [32, 32] product into the zero accumulator. -/
theorem project_apply {φ₁ φ₂ : FTy} (l : FVec Ideal S1024x32 φ₁) (r : FVec Ideal S32x32 φ₂) (p : Fin 1024) (g : Fin 32) :
    matmul dot_S1024x32_S32x32_S1024x32_1_0_0_1_n_n none l r (constant S1024x32 .f32 0x00000000#32) (ix2 p g)
      = ∑ f : Fin 32, l (ix2 p f) * r (ix2 f g) :=
  Cert.Lib.matmul2_zero_apply dot_S1024x32_S32x32_S1024x32_1_0_0_1_n_n_wf l r p g

/-- A [1024, 1024] by [1024, 32] product into the zero accumulator. -/
theorem aggregate_apply {φ₁ φ₂ : FTy} (l : FVec Ideal S1024x1024 φ₁) (r : FVec Ideal S1024x32 φ₂) (p : Fin 1024) (g : Fin 32) :
    matmul dot_S1024x1024_S1024x32_S1024x32_1_0_0_1_n_n none l r (constant S1024x32 .f32 0x00000000#32) (ix2 p g)
      = ∑ j : Fin 1024, l (ix2 p j) * r (ix2 j g) :=
  Cert.Lib.matmul2_zero_apply dot_S1024x1024_S1024x32_S1024x32_1_0_0_1_n_n_wf l r p g

/-- The rows of one [1024, 32] matrix against the rows of another, into the zero accumulator. -/
theorem rowsByRows_apply {φ₁ φ₂ : FTy} (l : FVec Ideal S1024x32 φ₁) (r : FVec Ideal S1024x32 φ₂) (p j : Fin 1024) :
    matmul dot_S1024x32_S1024x32_S1024x1024_1_1_0_0_n_n none l r (constant S1024x1024 .f32 0x00000000#32) (ix2 p j)
      = ∑ f : Fin 32, l (ix2 p f) * r (ix2 j f) :=
  Cert.Lib.matmulRows_zero_apply dot_S1024x32_S1024x32_S1024x1024_1_1_0_0_n_n_wf l r p j

/-! ## The stages of the body -/

/-- The rows with a gate multiplied in. -/
def gated (x0 : Vec Ideal S1x1024x32 .f32) (w : Vec Ideal S1x32 .f32) : FVec Ideal S1024x32 .bf16 :=
  truncf .bf16 (mulf (k0_pay2 x0) (broadcastTo S1024x32 (shapeCast S1x32 (shapeCast S32 w shapeCasts_S1x32_S32)
    shapeCasts_S32_S1x32) broadcasts_S1x32_S1024x32)) bitsLt_bf16_f32

theorem gated_apply (x0 : Vec Ideal S1x1024x32 .f32) (w : Vec Ideal S1x32 .f32) (p : Fin 1024) (f : Fin 32) :
    gated x0 w (ix2 p f) = rowsOf x0 p f * rowOf w f := by
  show k0_pay2 x0 (ix2 p f) * broadcastTo S1024x32 _ broadcasts_S1x32_S1024x32 (ix2 p f) = _
  rw [rows_apply, rowBroadcast_apply]

/-- The relation scores. -/
def scores (x0 : Vec Ideal S1x1024x32 .f32) (x1 x2 : Vec Ideal S1x32 .f32) : FVec Ideal S1024x1024 .f32 :=
  matmul dot_S1024x32_S1024x32_S1024x1024_1_1_0_0_n_n none (gated x0 x1) (gated x0 x2)
    (constant S1024x1024 .f32 0x00000000#32)

theorem scores_apply (x0 : Vec Ideal S1x1024x32 .f32) (x1 x2 : Vec Ideal S1x32 .f32) (p j : Fin 1024) :
    scores x0 x1 x2 (ix2 p j) = Spec.rel (rowsOf x0) (rowOf x1) (rowOf x2) p j := by
  unfold scores Spec.rel
  rw [rowsByRows_apply]
  refine Finset.sum_congr rfl fun f _ => ?_
  rw [gated_apply, gated_apply]

/-- The diagonal's bits: a column of row numbers against a row of column numbers. -/
def diagonal : IVec S1024x1024 1 :=
  cmpi .eq (broadcastTo S1024x1024 (iota .tc S1024x1 32 [0] iota_S1024x1_d0_w32) broadcasts_S1024x1_S1024x1024)
    (broadcastTo S1024x1024 (iota .tc S1x1024 32 [1] iota_S1x1024_d1_w32) broadcasts_S1x1024_S1024x1024)

theorem diagonal_apply (p j : Fin 1024) :
    diagonal (ix2 p j) = IntOp.cmpi .eq (BitVec.ofNat 32 p.val) (BitVec.ofNat 32 j.val) := by
  show IntOp.cmpi .eq (broadcastTo S1024x1024 _ broadcasts_S1024x1_S1024x1024 (ix2 p j))
    (broadcastTo S1024x1024 _ broadcasts_S1x1024_S1024x1024 (ix2 p j)) = _
  rw [Cert.Lib.broadcastTo_a1_ab_apply, broadcastTo_1b_ab_apply, iota_single_apply, iota_single_apply]

/-- The scores with the constant 0 selected on the diagonal. -/
def masked (x0 : Vec Ideal S1x1024x32 .f32) (x1 x2 : Vec Ideal S1x32 .f32) : FVec Ideal S1024x1024 .bf16 :=
  truncf .bf16 (select diagonal (broadcast S1024x1024 (Scalar.ofBits .f32 0x00000000#32)) (scores x0 x1 x2))
    bitsLt_bf16_f32

theorem masked_apply (x0 : Vec Ideal S1x1024x32 .f32) (x1 x2 : Vec Ideal S1x32 .f32) (p j : Fin 1024) :
    masked x0 x1 x2 (ix2 p j) = Spec.relOff (rowsOf x0) (rowOf x1) (rowOf x2) p j := by
  show Scalar.select (diagonal (ix2 p j)) (Ideal.ofBits .f32 0x00000000#32) (scores x0 x1 x2 (ix2 p j)) = _
  rw [diagonal_apply, Spec.select_rows, Ideal.ofBits_zero_f32, scores_apply]
  rfl

/-- The rectified unary transform of the rows. -/
def rectified (x0 : Vec Ideal S1x1024x32 .f32) (x3 : Vec Ideal S32x32 .f32) (x4 : Vec Ideal S1x32 .f32) :
    FVec Ideal S1024x32 .bf16 :=
  truncf .bf16 (maximumf
    (addf (matmul dot_S1024x32_S32x32_S1024x32_1_0_0_1_n_n none (truncf .bf16 (k0_pay2 x0) bitsLt_bf16_f32)
        (truncf .bf16 x3 bitsLt_bf16_f32) (constant S1024x32 .f32 0x00000000#32))
      (broadcastTo S1024x32 (shapeCast S1x32 (shapeCast S32 x4 shapeCasts_S1x32_S32) shapeCasts_S32_S1x32)
        broadcasts_S1x32_S1024x32))
    (broadcast S1024x32 (Scalar.ofBits .f32 0x00000000#32))) bitsLt_bf16_f32

theorem rectified_apply (x0 : Vec Ideal S1x1024x32 .f32) (x3 : Vec Ideal S32x32 .f32) (x4 : Vec Ideal S1x32 .f32)
    (j : Fin 1024) (g : Fin 32) :
    rectified x0 x3 x4 (ix2 j g) = Spec.unary (rowsOf x0) (matOf x3) (rowOf x4) j g := by
  show max (matmul dot_S1024x32_S32x32_S1024x32_1_0_0_1_n_n none (truncf .bf16 (k0_pay2 x0) bitsLt_bf16_f32)
        (truncf .bf16 x3 bitsLt_bf16_f32) (constant S1024x32 .f32 0x00000000#32) (ix2 j g)
      + broadcastTo S1024x32 _ broadcasts_S1x32_S1024x32 (ix2 j g)) (Ideal.ofBits .f32 0x00000000#32) = _
  rw [project_apply, rowBroadcast_apply, Ideal.ofBits_zero_f32]
  unfold Spec.unary
  refine congrArg (fun s => max (s + rowOf x4 g) 0) (Finset.sum_congr rfl fun f _ => ?_)
  show k0_pay2 x0 (ix2 j f) * x3 (ix2 f g) = _
  rw [rows_apply]

/-- The context: the masked scores against the unary transform, scaled by 2⁻¹⁰. -/
def context (x0 : Vec Ideal S1x1024x32 .f32) (x1 x2 : Vec Ideal S1x32 .f32) (x3 : Vec Ideal S32x32 .f32)
    (x4 : Vec Ideal S1x32 .f32) : FVec Ideal S1024x32 .bf16 :=
  truncf .bf16 (mulf
    (matmul dot_S1024x1024_S1024x32_S1024x32_1_0_0_1_n_n none (masked x0 x1 x2) (rectified x0 x3 x4)
      (constant S1024x32 .f32 0x00000000#32))
    (broadcast S1024x32 (Scalar.ofBits .f32 0x3A800000#32))) bitsLt_bf16_f32

/-- The body's first payload is these stages composed. -/
theorem pay3_eq (x0 : Vec Ideal S1x1024x32 .f32) (x1 x2 : Vec Ideal S1x32 .f32) (x3 : Vec Ideal S32x32 .f32)
    (x4 : Vec Ideal S1x32 .f32) : k0_pay3 x0 x1 x2 x3 x4 = context x0 x1 x2 x3 x4 := rfl

theorem context_apply (x0 : Vec Ideal S1x1024x32 .f32) (x1 x2 : Vec Ideal S1x32 .f32) (x3 : Vec Ideal S32x32 .f32)
    (x4 : Vec Ideal S1x32 .f32) (p : Fin 1024) (g : Fin 32) :
    context x0 x1 x2 x3 x4 (ix2 p g)
      = Spec.ctx (rowsOf x0) (rowOf x1) (rowOf x2) (matOf x3) (rowOf x4) p g := by
  show matmul dot_S1024x1024_S1024x32_S1024x32_1_0_0_1_n_n none (masked x0 x1 x2) (rectified x0 x3 x4)
      (constant S1024x32 .f32 0x00000000#32) (ix2 p g) * Ideal.ofBits .f32 0x3A800000#32 = _
  rw [aggregate_apply]
  unfold Spec.ctx
  refine congrArg (· * Ideal.ofBits .f32 0x3A800000#32) (Finset.sum_congr rfl fun j _ => ?_)
  rw [masked_apply, rectified_apply]

/-! ## The stored block -/

/-- THE BLOCK, ELEMENT BY ELEMENT: what the body stores at (·, p, g) is the specification's `out` at (p, g) of the
    loaded blocks' coordinates. -/
theorem stored_apply (x0 : Vec Ideal S1x1024x32 .f32) (x1 x2 : Vec Ideal S1x32 .f32) (x3 : Vec Ideal S32x32 .f32)
    (x4 : Vec Ideal S1x32 .f32) (x5 : Vec Ideal S32x32 .f32) (u : Fin 1) (p : Fin 1024) (g : Fin 32) :
    k0_pay1 (k0_pay2 x0) x5 (k0_pay3 x0 x1 x2 x3 x4) (ix3 u p g)
      = Spec.out (rowsOf x0) (rowOf x1) (rowOf x2) (matOf x3) (rowOf x4) (matOf x5) p g := by
  rw [pay3_eq]
  show shapeCast S1x1024x32 (addf (matmul dot_S1024x32_S32x32_S1024x32_1_0_0_1_n_n none (context x0 x1 x2 x3 x4)
      (truncf .bf16 x5 bitsLt_bf16_f32) (constant S1024x32 .f32 0x00000000#32)) (k0_pay2 x0))
    shapeCasts_S1024x32_S1x1024x32 (ix3 u p g) = _
  rw [shapeCast_ab_1ab_apply]
  show matmul dot_S1024x32_S32x32_S1024x32_1_0_0_1_n_n none (context x0 x1 x2 x3 x4)
      (truncf .bf16 x5 bitsLt_bf16_f32) (constant S1024x32 .f32 0x00000000#32) (ix2 p g) + k0_pay2 x0 (ix2 p g) = _
  rw [project_apply, rows_apply]
  unfold Spec.out
  refine congrArg (· + rowsOf x0 p g) (Finset.sum_congr rfl fun f _ => ?_)
  rw [context_apply]
  rfl

end Cert.KernelIdeal.Block

end
-- ==== Proof.KernelArray.lean ====
/-
  From the blocks to the whole result array.

  The grid has 64 points, one per batch entry. At point t the batch entry's window and the result's window sit at block
  (t, 0, 0) of their [64, 1024, 32] arrays, a block being [1, 1024, 32]; the gates, the bias and the two matrices are
  whole arrays that every point reads entire, the gates and the bias through a [32] → [1, 32] reshape made before the
  launch. An element of a block sits in its array at block index × block extent + its coordinate in the block, axis by
  axis. So what point t writes back is block t of one function of the argument arrays — the specification's `G` — and
  since every index (n, p, g) of the result array lies in the block of point n, the array ends holding `G` everywhere.
-/
import proofs.«118249_j23450521436770_2_alg».proof.Proof.Gen.KernelIdeal.Value
import proofs.«118249_j23450521436770_2_alg».proof.Proof.KernelBlock
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-! ## The result as one function of the argument arrays -/

/-- The result array on core `c`: the specification's `G` of the six argument arrays as launched. -/
def result (c : Dev nD) : S64x1024x32.Idx → EReal := fun i =>
  Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) (i 1) (i 2)

theorem result_ix3 (c : Dev nD) (n : Fin 64) (p : Fin 1024) (g : Fin 32) :
    result m c (ix3 n p g)
      = Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) n p g := rfl

/-! ## Where the windows sit -/

/-- The batch entry a grid point works on. -/
abbrev entry (t : Fin cfg0.N) : Fin 64 := ⟨t.val, lt_of_lt_of_eq t.isLt N_0⟩

/-- The printed index maps, decided over the 64 points: the batch entry's and the result's windows are at block
    (t, 0, 0), every other window at block (0, 0). -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The arrays the reshapes wrote before the launch -/

theorem V_gate1 (c : Dev nD) : (V m c main_v0 : S1x32.Idx → EReal)
    = shapeCast S1x32 (m ((c : Thread nD τ).loc main_arg1)) shapeCasts_S32_S1x32 := by
  dsimp only [Gen.V, Gen.hostOps0]; after_results; rfl

theorem V_gate2 (c : Dev nD) : (V m c main_v1 : S1x32.Idx → EReal)
    = shapeCast S1x32 (m ((c : Thread nD τ).loc main_arg2)) shapeCasts_S32_S1x32 := by
  dsimp only [Gen.V, Gen.hostOps0]; after_results; rfl

theorem V_bias (c : Dev nD) : (V m c main_v2 : S1x32.Idx → EReal)
    = shapeCast S1x32 (m ((c : Thread nD τ).loc main_arg4)) shapeCasts_S32_S1x32 := by
  dsimp only [Gen.V, Gen.hostOps0]; after_results; rfl

/-! ## The input blocks at a point, by coordinates -/

/-- The batch entry's block at point `t` holds entry `t` of the array. -/
theorem rows_read (c : Dev nD) (t : Fin cfg0.N) :
    Block.rowsOf (iblk m c 0 t) = fun p f => m ((c : Thread nD τ).loc main_arg0) (ix3 (entry t) p f) := by
  funext p f
  show V m c main_arg0 (((cfg0.win 0).blk t).view.emb (ix3 (0 : Fin 1) p f)) = _
  rw [V_main_arg0]
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 32 + 1 * f.val = f.val; omega

/-- A reshaped vector's block is the vector. -/
theorem gate1_read (c : Dev nD) (t : Fin cfg0.N) :
    Block.rowOf (iblk m c 1 t) = fun f => m ((c : Thread nD τ).loc main_arg1) (ix1 f) := by
  funext f
  show V m c main_v0 (((cfg0.win 1).blk t).view.emb (ix2 (0 : Fin 1) f)) = _
  obtain ⟨-, -, -, -, -, -, e0, e1, -⟩ := idx_facts t
  have he : ((cfg0.win 1).blk t).view.emb (ix2 (0 : Fin 1) f) = ix2 (0 : Fin 1) f := funext fun a => Fin.ext (by
    match a with
    | ⟨0, _⟩ => show win0_1.index t (0 : Fin 2) * 1 + 1 * 0 = 0; omega
    | ⟨1, _⟩ => show win0_1.index t (1 : Fin 2) * 32 + 1 * f.val = f.val; omega)
  rw [he, V_gate1]
  exact shapeCast_a_1a_apply _ shapeCasts_S32_S1x32 0 f

theorem gate2_read (c : Dev nD) (t : Fin cfg0.N) :
    Block.rowOf (iblk m c 2 t) = fun f => m ((c : Thread nD τ).loc main_arg2) (ix1 f) := by
  funext f
  show V m c main_v1 (((cfg0.win 2).blk t).view.emb (ix2 (0 : Fin 1) f)) = _
  obtain ⟨-, -, -, -, -, -, -, -, e0, e1, -⟩ := idx_facts t
  have he : ((cfg0.win 2).blk t).view.emb (ix2 (0 : Fin 1) f) = ix2 (0 : Fin 1) f := funext fun a => Fin.ext (by
    match a with
    | ⟨0, _⟩ => show win0_2.index t (0 : Fin 2) * 1 + 1 * 0 = 0; omega
    | ⟨1, _⟩ => show win0_2.index t (1 : Fin 2) * 32 + 1 * f.val = f.val; omega)
  rw [he, V_gate2]
  exact shapeCast_a_1a_apply _ shapeCasts_S32_S1x32 0 f

theorem bias_read (c : Dev nD) (t : Fin cfg0.N) :
    Block.rowOf (iblk m c 4 t) = fun f => m ((c : Thread nD τ).loc main_arg4) (ix1 f) := by
  funext f
  show V m c main_v2 (((cfg0.win 4).blk t).view.emb (ix2 (0 : Fin 1) f)) = _
  obtain ⟨-, -, -, -, -, -, -, -, -, -, -, -, e0, e1, -⟩ := idx_facts t
  have he : ((cfg0.win 4).blk t).view.emb (ix2 (0 : Fin 1) f) = ix2 (0 : Fin 1) f := funext fun a => Fin.ext (by
    match a with
    | ⟨0, _⟩ => show win0_4.index t (0 : Fin 2) * 1 + 1 * 0 = 0; omega
    | ⟨1, _⟩ => show win0_4.index t (1 : Fin 2) * 32 + 1 * f.val = f.val; omega)
  rw [he, V_bias]
  exact shapeCast_a_1a_apply _ shapeCasts_S32_S1x32 0 f

/-- A whole matrix's block is the matrix. -/
theorem unaryMat_read (c : Dev nD) (t : Fin cfg0.N) :
    Block.matOf (iblk m c 3 t) = fun f g => m ((c : Thread nD τ).loc main_arg3) (ix2 f g) := by
  funext f g
  show V m c main_arg3 (((cfg0.win 3).blk t).view.emb (ix2 f g)) = _
  rw [V_main_arg3]
  refine congrArg _ (funext fun a => Fin.ext ?_)
  obtain ⟨-, -, -, -, -, -, -, -, -, -, e0, e1, -⟩ := idx_facts t
  match a with
  | ⟨0, _⟩ => show win0_3.index t (0 : Fin 2) * 32 + 1 * f.val = f.val; omega
  | ⟨1, _⟩ => show win0_3.index t (1 : Fin 2) * 32 + 1 * g.val = g.val; omega

theorem outMat_read (c : Dev nD) (t : Fin cfg0.N) :
    Block.matOf (iblk m c 5 t) = fun f g => m ((c : Thread nD τ).loc main_arg5) (ix2 f g) := by
  funext f g
  show V m c main_arg5 (((cfg0.win 5).blk t).view.emb (ix2 f g)) = _
  rw [V_main_arg5]
  refine congrArg _ (funext fun a => Fin.ext ?_)
  obtain ⟨-, -, -, -, -, -, -, -, -, -, -, -, -, -, e0, e1⟩ := idx_facts t
  match a with
  | ⟨0, _⟩ => show win0_5.index t (0 : Fin 2) * 32 + 1 * f.val = f.val; omega
  | ⟨1, _⟩ => show win0_5.index t (1 : Fin 2) * 32 + 1 * g.val = g.val; omega

/-- An element of the result's block at point `t` sits at entry `t` of the array. -/
theorem out_emb (t : Fin cfg0.N) (u : Fin 1) (p : Fin 1024) (g : Fin 32) :
    ((cfg0.win 6).blk t).view.emb (ix3 u p g) = ix3 (entry t) p g := by
  refine funext fun a => Fin.ext ?_
  obtain ⟨-, -, -, e0, e1, e2, -⟩ := idx_facts t
  have hu := u.isLt
  match a with
  | ⟨0, _⟩ => show win0_6.index t (0 : Fin 3) * 1 + 1 * u.val = t.val; omega
  | ⟨1, _⟩ => show win0_6.index t (1 : Fin 3) * 1024 + 1 * p.val = p.val; omega
  | ⟨2, _⟩ => show win0_6.index t (2 : Fin 3) * 32 + 1 * g.val = g.val; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT `t` WRITES BACK is block `t` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz3]
  simp only [View.ld_unit_zero (S := S1x1024x32) hz3, View.ld_unit_zero (S := S1x32) hz2,
    View.ld_unit_zero (S := S32x32) hz2]
  refine funext fun (y : S1x1024x32.Idx) => ?_
  obtain ⟨u, p, g, rfl⟩ : ∃ (u : Fin 1) (p : Fin 1024) (g : Fin 32), y = ix3 u p g := ⟨y 0, y 1, y 2, eq_ix3 y⟩
  show k0_pay1 (k0_pay2 (iblk m c 0 t)) (iblk m c 5 t)
      (k0_pay3 (iblk m c 0 t) (iblk m c 1 t) (iblk m c 2 t) (iblk m c 3 t) (iblk m c 4 t)) (ix3 u p g)
    = result m c (((cfg0.win 6).blk t).view.emb (ix3 u p g))
  refine (Block.stored_apply (iblk m c 0 t) (iblk m c 1 t) (iblk m c 2 t) (iblk m c 3 t) (iblk m c 4 t)
    (iblk m c 5 t) u p g).trans ?_
  rw [rows_read, gate1_read, gate2_read, unaryMat_read, bias_read, outMat_read, out_emb, result_ix3]
  rfl

/-! ## The cover, and the array -/

/-- An index of the array is in point `t`'s block iff each coordinate is in the block's range on its axis. -/
theorem mem_blk (t : Fin cfg0.N) (i : S64x1024x32.Idx) :
    i ∈ ((cfg0.win 6).blk t).view.set ↔ ∀ a : Fin 3, win0_6.index t a * S1x1024x32.size a ≤ (i a).val
      ∧ (i a).val < win0_6.index t a * S1x1024x32.size a + S1x1024x32.size a := by
  show i ∈ ((View.whole main_v3).slice (win0_6.rect t)).set ↔ _
  rw [View.set_slice_whole, Rect.mem_set_unit]
  exact Iff.rfl

/-- Every index (n, p, g) of the result array is in the block of point n. -/
theorem cover (i : S64x1024x32.Idx) :
    ∃ t : Fin cfg0.N, (cfg0.win 6).flush t = true ∧ i ∈ ((cfg0.win 6).blk t).view.set := by
  have h0 : (i 0).val < 64 := (i 0).isLt
  have h1 : (i 1).val < 1024 := (i 1).isLt
  have h2 : (i 2).val < 32 := (i 2).isLt
  refine ⟨⟨(i 0).val, lt_of_lt_of_eq h0 N_0.symm⟩, flush0_6 _, ?_⟩
  rw [mem_blk]
  obtain ⟨-, -, -, e0, e1, e2, -⟩ := idx_facts ⟨(i 0).val, lt_of_lt_of_eq h0 N_0.symm⟩
  intro a
  match a with
  | ⟨0, _⟩ =>
    show win0_6.index _ (0 : Fin 3) * 1 ≤ (i 0).val ∧ (i 0).val < win0_6.index _ (0 : Fin 3) * 1 + 1
    rw [e0]; show (i 0).val * 1 ≤ (i 0).val ∧ (i 0).val < (i 0).val * 1 + 1; omega
  | ⟨1, _⟩ =>
    show win0_6.index _ (1 : Fin 3) * 1024 ≤ (i 1).val ∧ (i 1).val < win0_6.index _ (1 : Fin 3) * 1024 + 1024
    rw [e1]; omega
  | ⟨2, _⟩ =>
    show win0_6.index _ (2 : Fin 3) * 32 ≤ (i 2).val ∧ (i 2).val < win0_6.index _ (2 : Fin 3) * 32 + 32
    rw [e2]; omega

/-- THE ARRAY after the run is `result`. -/
theorem final (c : Dev nD) : (dats m 0 c).arrAt 6 cfg0.N = result m c :=
  (dats m 0 c).arrAt_eq_of_cover 6 (result m c) (fun t _ => flushed_eq m c t) cover

/-! ## The run, read -/

/-- Every weakly fair execution terminates with the result array at `result` and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  What the reference computes, element by element.

  The reference's operations are read one at a time at an index given by its coordinates (n, p, g) — batch entry, row,
  feature. The two gates are broadcast along the batch and row axes and multiplied into the array; the batched product
  of the gated arrays over the feature axis gives the relation scores of rows p and j of entry n; the diagonal is
  removed by multiplying with 1 − e, e the 0/1 indicator that the row number (increased by the word 0) equals the
  column number, which on the extended reals is 0 on the diagonal and the score itself off it; the array times the
  unary matrix plus the bias, rectified against 0; the batched product of the masked scores with that over the rows;
  the quotient by 1024, which is the product with 2⁻¹⁰; the product with the output matrix plus the array. Each is the
  matching line of the specification, so the result at (n, p, g) is `Spec.G` there.
-/
import proofs.«118249_j23450521436770_2_alg».proof.Proof.Gen.ReferenceIdeal.Read
import proofs.«118249_j23450521436770_2_alg».proof.Proof.Spec

noncomputable section

namespace Cert.ReferenceIdeal.RefValue

open Cert.ReferenceIdeal Cert.ReferenceIdeal.Read Idealize.ShloMosaic Idealize.ShloMosaic.ValueIdx

variable (x0 : S64x1024x32.Idx → EReal) (x1 x2 : S32.Idx → EReal) (x3 : S32x32.Idx → EReal) (x4 : S32.Idx → EReal)
  (x5 : S32x32.Idx → EReal)

/-! ## The coordinates of the argument arrays -/

/-- Row `p`, feature `f` of batch entry `n`. -/
abbrev rowsOf (n : Fin 64) : Fin 1024 → Fin 32 → EReal := fun p f => x0 (ix3 n p f)
/-- Entry `f` of a vector. -/
abbrev vecOf (w : S32.Idx → EReal) : Fin 32 → EReal := fun f => w (ix1 f)
/-- Entry (f, g) of a matrix. -/
abbrev matOf (w : S32x32.Idx → EReal) : Fin 32 → Fin 32 → EReal := fun f g => w (ix2 f g)

/-! ## Where each operation reads its operands, by coordinates -/

theorem gate_idx1 (n : Fin 64) (p : Fin 1024) (f : Fin 32) : idx_main_v0 (idx_main_v1 (ix3 n p f)) = ix1 f :=
  funext fun a => Fin.ext (by match a with | ⟨0, _⟩ => rfl)
theorem gate_idx2 (n : Fin 64) (p : Fin 1024) (f : Fin 32) : idx_main_v3 (idx_main_v4 (ix3 n p f)) = ix1 f :=
  funext fun a => Fin.ext (by match a with | ⟨0, _⟩ => rfl)
theorem bias_idx (n : Fin 64) (p : Fin 1024) (f : Fin 32) : idx_main_v19 (idx_main_v20 (ix3 n p f)) = ix1 f :=
  funext fun a => Fin.ext (by match a with | ⟨0, _⟩ => rfl)
theorem score_lidx (n : Fin 64) (p j : Fin 1024) (k : Fin 32) : lidx_main_v6 (ix3 n p j) k = ix3 n p k :=
  funext fun a => Fin.ext (by match a with | ⟨0, _⟩ => rfl | ⟨1, _⟩ => rfl | ⟨2, _⟩ => rfl)
theorem score_ridx (n : Fin 64) (p j : Fin 1024) (k : Fin 32) : ridx_main_v6 (ix3 n p j) k = ix3 n j k :=
  funext fun a => Fin.ext (by match a with | ⟨0, _⟩ => rfl | ⟨1, _⟩ => rfl | ⟨2, _⟩ => rfl)
theorem mask_idx (n : Fin 64) (p j : Fin 1024) : idx_main_v15 (idx_main_v16 (ix3 n p j)) = ix2 p j :=
  funext fun a => Fin.ext (by match a with | ⟨0, _⟩ => rfl | ⟨1, _⟩ => rfl)
theorem unary_lidx (n : Fin 64) (j : Fin 1024) (g k : Fin 32) : lidx_main_v18 (ix3 n j g) k = ix3 n j k :=
  funext fun a => Fin.ext (by match a with | ⟨0, _⟩ => rfl | ⟨1, _⟩ => rfl | ⟨2, _⟩ => rfl)
theorem unary_ridx (n : Fin 64) (j : Fin 1024) (g k : Fin 32) : ridx_main_v18 (ix3 n j g) k = ix2 k g :=
  funext fun a => Fin.ext (by match a with | ⟨0, _⟩ => rfl | ⟨1, _⟩ => rfl)
theorem agg_lidx (n : Fin 64) (p : Fin 1024) (g : Fin 32) (k : Fin 1024) : lidx_main_v23 (ix3 n p g) k = ix3 n p k :=
  funext fun a => Fin.ext (by match a with | ⟨0, _⟩ => rfl | ⟨1, _⟩ => rfl | ⟨2, _⟩ => rfl)
theorem agg_ridx (n : Fin 64) (p : Fin 1024) (g : Fin 32) (k : Fin 1024) : ridx_main_v23 (ix3 n p g) k = ix3 n k g :=
  funext fun a => Fin.ext (by match a with | ⟨0, _⟩ => rfl | ⟨1, _⟩ => rfl | ⟨2, _⟩ => rfl)
theorem out_lidx (n : Fin 64) (p : Fin 1024) (g k : Fin 32) : lidx_main_v26 (ix3 n p g) k = ix3 n p k :=
  funext fun a => Fin.ext (by match a with | ⟨0, _⟩ => rfl | ⟨1, _⟩ => rfl | ⟨2, _⟩ => rfl)
theorem out_ridx (n : Fin 64) (p : Fin 1024) (g k : Fin 32) : ridx_main_v26 (ix3 n p g) k = ix2 k g :=
  funext fun a => Fin.ext (by match a with | ⟨0, _⟩ => rfl | ⟨1, _⟩ => rfl)

/-! ## The stages -/

/-- The array with the first gate multiplied in. -/
theorem gated1_apply (n : Fin 64) (p : Fin 1024) (f : Fin 32) :
    val_main_v2 (F := Ideal) x0 x1 (ix3 n p f) = rowsOf x0 n p f * vecOf x1 f := by
  rw [val_main_v2_apply, val_main_v1_apply, val_main_v0_apply, gate_idx1]
  rfl

/-- The array with the second gate multiplied in. -/
theorem gated2_apply (n : Fin 64) (p : Fin 1024) (f : Fin 32) :
    val_main_v5 (F := Ideal) x0 x2 (ix3 n p f) = rowsOf x0 n p f * vecOf x2 f := by
  rw [val_main_v5_apply, val_main_v4_apply, val_main_v3_apply, gate_idx2]
  rfl

/-- The relation scores. -/
theorem scores_apply (n : Fin 64) (p j : Fin 1024) :
    val_main_v6 (F := Ideal) x0 x1 x2 (ix3 n p j) = Spec.rel (rowsOf x0 n) (vecOf x1) (vecOf x2) p j := by
  rw [val_main_v6_apply]
  unfold Spec.rel
  refine Finset.sum_congr rfl fun k _ => ?_
  rw [score_lidx, score_ridx, gated1_apply, gated2_apply]

/-- One minus the diagonal's indicator. -/
theorem offDiagonal_apply (n : Fin 64) (p j : Fin 1024) :
    val_main_v16 (F := Ideal) (ix3 n p j) = Ideal.ofBits .f32 0x3F800000#32
      - (((IntOp.cmpi .eq (IntOp.addi (BitVec.ofNat 32 p.val) 0#32) (BitVec.ofNat 32 j.val)).toNat : ℝ) : EReal) := by
  rw [val_main_v16_apply, val_main_v15_apply, mask_idx, val_main_v14_apply, val_main_v13_apply, val_main_cst_apply,
    val_main_v12_apply, val_main_v11_apply, val_main_v10_apply, val_main_v7_apply, val_main_v8_apply,
    val_main_v9_apply, val_main_c_apply]
  rfl

/-- The scores with the diagonal removed. -/
theorem masked_apply (n : Fin 64) (p j : Fin 1024) :
    val_main_v17 (F := Ideal) x0 x1 x2 (ix3 n p j) = Spec.relOff (rowsOf x0 n) (vecOf x1) (vecOf x2) p j := by
  rw [val_main_v17_apply, scores_apply, offDiagonal_apply]
  exact Spec.mul_one_sub_rows p j _

/-- The rectified unary transform. -/
theorem rectified_apply (n : Fin 64) (j : Fin 1024) (g : Fin 32) :
    val_main_v22 (F := Ideal) x0 x3 x4 (ix3 n j g) = Spec.unary (rowsOf x0 n) (matOf x3) (vecOf x4) j g := by
  rw [val_main_v22_apply, val_main_v21_apply, val_main_v18_apply, val_main_v20_apply, val_main_v19_apply, bias_idx,
    val_main_call0_v0_apply, val_main_call0_cst_apply]
  unfold Spec.unary
  show max ((∑ k : Fin 32, x0 (lidx_main_v18 (ix3 n j g) k) * x3 (ridx_main_v18 (ix3 n j g) k)) + x4 (ix1 g))
    (Ideal.ofBits .f32 0x00000000#32) = _
  rw [Ideal.ofBits_zero_f32]
  refine congrArg (fun s => max (s + x4 (ix1 g)) 0) (Finset.sum_congr rfl fun k _ => ?_)
  rw [unary_lidx, unary_ridx]

/-- The context: the quotient by 1024 is the product with 2⁻¹⁰. -/
theorem context_apply (n : Fin 64) (p : Fin 1024) (g : Fin 32) :
    val_main_v25 (F := Ideal) x0 x1 x2 x3 x4 (ix3 n p g)
      = Spec.ctx (rowsOf x0 n) (vecOf x1) (vecOf x2) (matOf x3) (vecOf x4) p g := by
  rw [val_main_v25_apply, val_main_v23_apply, val_main_v24_apply, val_main_cst_0_apply]
  unfold Spec.ctx
  show Ideal.div _ (Ideal.ofBits .f32 0x44800000#32) = _
  rw [Cert.Consts.div_1024]
  refine congrArg (· * Ideal.ofBits .f32 0x3A800000#32) (Finset.sum_congr rfl fun k _ => ?_)
  rw [agg_lidx, agg_ridx, masked_apply, rectified_apply]

/-- THE RESULT, ELEMENT BY ELEMENT. -/
theorem result_apply (n : Fin 64) (p : Fin 1024) (g : Fin 32) :
    val_main_v27 (F := Ideal) x0 x1 x2 x3 x4 x5 (ix3 n p g) = Spec.G x0 x1 x2 x3 x4 x5 n p g := by
  rw [val_main_v27_apply, val_main_v26_apply]
  unfold Spec.G Spec.out
  show (∑ k : Fin 32, val_main_v25 (F := Ideal) x0 x1 x2 x3 x4 (lidx_main_v26 (ix3 n p g) k)
      * x5 (ridx_main_v26 (ix3 n p g) k)) + x0 (ix3 n p g) = _
  refine congrArg (· + x0 (ix3 n p g)) (Finset.sum_congr rfl fun k _ => ?_)
  rw [out_lidx, out_ridx, context_apply]

end Cert.ReferenceIdeal.RefValue

end
-- ==== Proof.lean ====
/-
  The kernel and its reference compute the same function of their arguments on the extended reals.

  For each of 64 batch entries with 1024 rows of 32 features, both programs gate the rows by two per-feature vectors,
  score every pair of rows by the inner product of the gated rows, drop each row's score with itself, take the
  rectified unary transform of the rows (a 32 × 32 matrix and a bias), average the scores against it over the 1024
  rows, project by a second 32 × 32 matrix and add the row back. The kernel does this one batch entry per grid point,
  on a [1, 1024, 32] block, with roundings to a narrower float format on the way into its matrix products; the
  reference does it on the whole [64, 1024, 32] array with batched products. On the extended reals a change of float
  format is the identity and a matrix product is its sum of products, so the two differ only in spelling, at two places:
  the diagonal is removed by a select of 0 in the one and by a product with (1 − indicator) in the other, and the mean
  is a product with 2⁻¹⁰ in the one and a quotient by 1024 in the other. Both pairs agree at every extended real, so the
  precondition (finite inputs) is not used.

  The modules: Proof/Spec.lean states the common function and the two scalar laws; Proof/KernelBlock.lean reads the
  kernel body's stored block element by element; Proof/KernelArray.lean assembles the 64 blocks into the result array;
  Proof/RefValue.lean reads the reference's result element by element. The three frames are the programs' runs with
  the results dropped; the idealization rewrote nothing, so there is nothing to preserve.
-/
import proofs.«118249_j23450521436770_2_alg».proof.Defs
import proofs.«118249_j23450521436770_2_alg».proof.Proof.Gen.Kernel
import proofs.«118249_j23450521436770_2_alg».proof.Proof.Gen.Kernel.Skeleton
import proofs.«118249_j23450521436770_2_alg».proof.Proof.Gen.Kernel.Launch
import proofs.«118249_j23450521436770_2_alg».proof.Proof.Gen.Kernel.Points
import proofs.«118249_j23450521436770_2_alg».proof.Proof.Gen.Kernel.Frame
import proofs.«118249_j23450521436770_2_alg».proof.Proof.Gen.KernelIdeal
import proofs.«118249_j23450521436770_2_alg».proof.Proof.Gen.KernelIdeal.Skeleton
import proofs.«118249_j23450521436770_2_alg».proof.Proof.Gen.KernelIdeal.Launch
import proofs.«118249_j23450521436770_2_alg».proof.Proof.Gen.KernelIdeal.Points
import proofs.«118249_j23450521436770_2_alg».proof.Proof.Gen.KernelIdeal.Frame
import proofs.«118249_j23450521436770_2_alg».proof.Proof.Gen.ReferenceIdeal
import proofs.«118249_j23450521436770_2_alg».proof.Proof.Gen.Pre_finite_inputs
import proofs.«118249_j23450521436770_2_alg».proof.Proof.Gen.KernelIdeal.Value
import proofs.«118249_j23450521436770_2_alg».proof.Proof.Gen.ReferenceIdeal.Run
import proofs.«118249_j23450521436770_2_alg».proof.Proof.Gen.ReferenceIdeal.Read
import proofs.«118249_j23450521436770_2_alg».proof.Proof.KernelArray
import proofs.«118249_j23450521436770_2_alg».proof.Proof.RefValue
import Idealize.ShloMosaic.Adequacy
import Idealize.ShloMosaic.Init

noncomputable section

namespace Cert.Proof

open Idealize.ShloMosaic Idealize.ShloMosaic.ValueIdx Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel's result array ends at the common function of its arguments
    (the 64 blocks assembled) and the reference's at the same function of its own (its operations read at an index). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq]
  obtain ⟨h0, h1, h2, h3, h4, h5⟩ := hagree c
  rw [h0, h1, h2, h3, h4, h5]
  funext i
  obtain ⟨n, p, g, rfl⟩ : ∃ (n : Fin 64) (p : Fin 1024) (g : Fin 32), i = ix3 n p g := ⟨i 0, i 1, i 2, eq_ix3 i⟩
  exact (Cert.ReferenceIdeal.RefValue.result_apply _ _ _ _ _ _ n p g).trans
    (Cert.KernelIdeal.Whole.result_ix3 m c n p g).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
